-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel

variable [Facts]

def fn {F : FTy → Type} [FloatOps F] (main_arg0 : FVec F S131072x512 .f32) (main_arg1 : FVec F S131072x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  main_v8
-- ==== Kernel.lean ====
abbrev S131072x512 : Shape := ⟨2, ![131072, 512]⟩
abbrev S131072x1 : Shape := ⟨2, ![131072, 1]⟩
abbrev S4096x512 : Shape := ⟨2, ![4096, 512]⟩
abbrev S4096x1 : Shape := ⟨2, ![4096, 1]⟩
abbrev S4096 : Shape := ⟨1, ![4096]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S131072x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | .local _ .vmem, ⟨4, _⟩ => ⟨S4096x1, .f32⟩
  | .local _ .vmem, ⟨5, _⟩ => ⟨S4096x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  reduces_S4096x512_S4096 : S4096x512.Reduces [1] S4096
  shapeCasts_S4096_S4096x1 : S4096.ShapeCasts S4096x1
  broadcasts_S4096x1_S4096x512 : S4096x1.Broadcasts S4096x512
  inb_S4096x1_S4096x1_0_0 : ∀ a, (![0, 0] : Fin 2 → Nat) a + S4096x1.size a ≤ S4096x1.size a
  h_S4096x1 : 0 < S4096x1.numel
  reducesTo_S131072x1_S_d0_1 : S131072x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S131072x512.size a
  hwx0_1 : ∀ i : grid0.Coords, EltTy.bits .f32 = 32 ∨ (Rect.block (s := S131072x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S131072x1.size a
  hwx0_2 : ∀ i : grid0.Coords, EltTy.bits .f32 = 32 ∨ (Rect.block (s := S131072x1) S4096x1.size (cc0_transform_2 i) (hinb0_2 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x512 : Shape := ⟨2, ![131072, 512]⟩
abbrev S_ : Shape := ⟨0, ![]⟩
abbrev S131072 : Shape := ⟨1, ![131072]⟩
abbrev S131072x1 : Shape := ⟨2, ![131072, 1]⟩

abbrev nBuf : Space → Nat
  | .hbm => 25
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x512, .f32⟩
  | .hbm, ⟨2, _⟩ => ⟨S_, .f32⟩
  | .hbm, ⟨3, _⟩ => ⟨S131072, .f32⟩
  | .hbm, ⟨4, _⟩ => ⟨S_, .f32⟩
  | .hbm, ⟨5, _⟩ => ⟨S131072, .f32⟩
  | .hbm, ⟨6, _⟩ => ⟨S131072, .f32⟩
  | .hbm, ⟨7, _⟩ => ⟨S131072x1, .f32⟩
  | .hbm, ⟨8, _⟩ => ⟨S131072x512, .f32⟩
  | .hbm, ⟨9, _⟩ => ⟨S131072x512, .f32⟩
  | .hbm, ⟨10, _⟩ => ⟨S131072x512, .f32⟩
  | .hbm, ⟨11, _⟩ => ⟨S_, .f32⟩
  | .hbm, ⟨12, _⟩ => ⟨S131072, .f32⟩
  | .hbm, ⟨13, _⟩ => ⟨S131072x1, .f32⟩
  | .hbm, ⟨14, _⟩ => ⟨S131072x1, .f32⟩
  | .hbm, ⟨15, _⟩ => ⟨S131072x512, .f32⟩
  | .hbm, ⟨16, _⟩ => ⟨S131072x512, .f32⟩
  | .hbm, ⟨17, _⟩ => ⟨S131072x512, .f32⟩
  | .hbm, ⟨18, _⟩ => ⟨S_, .f32⟩
  | .hbm, ⟨19, _⟩ => ⟨S131072, .f32⟩
  | .hbm, ⟨20, _⟩ => ⟨S131072, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  reducesTo_S131072_S_d0 : S131072.ReducesTo [0] S_

variable [Facts₀]

class Facts : Prop extends Facts₀ where

variable [Facts]
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.RowLoss.lean ====
/-
  The soft-target cross-entropy of ONE row, in the two arrangements the two programs compute.

  For a row of logits `x` and a row of target weights `t` (both of length `n`), with `M` the row's maximum and
  `L = log Σₖ exp (xₖ − M)` the logarithm of the shifted exponentials' sum, the loss of the row is
      −Σₖ tₖ · log_softmax(x)ₖ = −Σₖ tₖ · ((xₖ − M) − L).
  That is the PLAIN arrangement. The FACTORED arrangement pulls the two row constants out of the sum:
      0 − (Σₖ tₖ·xₖ − (L + M) · Σₖ tₖ).
  The two agree by distributivity, which on the extended reals holds only where every quantity is a real number
  (it fails at the infinities). With real logits and real weights everything in sight is real: the maximum of a
  nonempty row of reals is one of its entries; each shifted exponential is a positive real, so their sum is a positive
  real and its logarithm is a real. So on rows of reals the two arrangements are equal.
-/
import Idealize.ShloMosaic.PureOps.Ideal
import proofs.«101426_j70635032150275_2_alg».proof.Proof.LibRealEntries
import proofs.«101426_j70635032150275_2_alg».proof.Proof.LibMaxReduce

noncomputable section

open scoped BigOperators

namespace Cert.SoftTargetLoss

open Idealize.ShloMosaic Cert.LibRealEntries Cert.LibMaxReduce

variable {n : ℕ}

/-- The logarithm of the sum of a row's exponentials after the shift by `M`. -/
def logSumExp (x : Fin n → EReal) (M : EReal) : EReal := Ideal.log (∑ k, Ideal.exp (x k - M))

/-- The row's loss with the row constants pulled out of the sum: `0 − (Σ t·x − (L + M)·Σ t)`, where `M` is the running
    maximum of the row from the start value `s`. -/
def lossFactored (s : EReal) (x t : Fin n → EReal) : EReal :=
  0 - ((∑ k, t k * x k) - (logSumExp x (foldMax s x) + foldMax s x) * ∑ k, t k)

/-- The row's loss as minus the weighted sum of the log-softmax entries: `−Σ t·((x − M) − L)`. -/
def lossPlain (s : EReal) (x t : Fin n → EReal) : EReal :=
  -(∑ k, t k * ((x k - foldMax s x) - logSumExp x (foldMax s x)))

/-- A finite sum of real numbers, summed among the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A running maximum over a finite set is its start value or one of the entries. -/
theorem fold_max_mem {ι : Type*} [DecidableEq ι] (s : Finset ι) (b : EReal) (f : ι → EReal) :
    s.fold max b f = b ∨ ∃ i ∈ s, s.fold max b f = f i := by
  induction s using Finset.induction_on with
  | empty => exact Or.inl (Finset.fold_empty)
  | insert a s ha ih =>
    rw [Finset.fold_insert ha]
    rcases le_total (f a) (s.fold max b f) with h | h
    · rw [max_eq_right h]
      rcases ih with e | ⟨i, hi, e⟩
      · exact Or.inl e
      · exact Or.inr ⟨i, Finset.mem_insert_of_mem hi, e⟩
    · rw [max_eq_left h]
      exact Or.inr ⟨a, Finset.mem_insert_self a s, rfl⟩

/-- The maximum of a nonempty row of reals, taken from −∞, is a real: it is one of the entries. -/
theorem foldMax_bot_isReal (hn : 0 < n) (x : Fin n → EReal) (hx : ∀ k, IsReal (x k)) : IsReal (foldMax ⊥ x) := by
  unfold foldMax
  rcases fold_max_mem Finset.univ ⊥ x with e | ⟨i, -, e⟩
  · exfalso
    have h0 : x ⟨0, hn⟩ ≤ Finset.univ.fold max ⊥ x :=
      (Finset.le_fold_max _).mpr (Or.inr ⟨⟨0, hn⟩, Finset.mem_univ _, le_rfl⟩)
    obtain ⟨r, hr⟩ := hx ⟨0, hn⟩
    rw [e, hr] at h0
    exact absurd (le_bot_iff.mp h0) (EReal.coe_ne_bot r)
  · rw [e]; exact hx i

/-- The logarithm of the sum of the shifted exponentials of a nonempty row of reals is a real: the sum is a positive
    real. -/
theorem logSumExp_isReal (hn : 0 < n) (a : Fin n → ℝ) (M : ℝ) :
    IsReal (logSumExp (fun k => (a k : EReal)) (M : EReal)) := by
  unfold logSumExp
  have e : (∑ k, Ideal.exp ((a k : EReal) - (M : EReal))) = ((∑ k, Real.exp (a k - M) : ℝ) : EReal) := by
    rw [← coe_sum]
    refine Finset.sum_congr rfl fun k _ => ?_
    rw [← EReal.coe_sub, Ideal.exp_coe]
  have hpos : 0 < ∑ k, Real.exp (a k - M) :=
    Finset.sum_pos (fun k _ => Real.exp_pos _) ⟨⟨0, hn⟩, Finset.mem_univ _⟩
  rw [e, Ideal.log_coe, if_neg (not_le.mpr hpos)]
  exact ⟨_, rfl⟩

/-- On a nonempty row of real logits and real weights the factored and the plain arrangement of the loss agree. -/
theorem lossFactored_eq_lossPlain (hn : 0 < n) (x t : Fin n → EReal) (hx : ∀ k, IsReal (x k)) (ht : ∀ k, IsReal (t k)) :
    lossFactored ⊥ x t = lossPlain ⊥ x t := by
  obtain ⟨M, hM⟩ := foldMax_bot_isReal hn x hx
  choose a ha using hx
  choose b hb using ht
  obtain rfl : x = fun k => (a k : EReal) := funext ha
  obtain rfl : t = fun k => (b k : EReal) := funext hb
  obtain ⟨L, hL⟩ := logSumExp_isReal hn a M
  unfold lossFactored lossPlain
  rw [hM, hL]
  have e1 : (∑ k, (b k : EReal) * (a k : EReal)) = ((∑ k, b k * a k : ℝ) : EReal) := by
    rw [← coe_sum]; exact Finset.sum_congr rfl fun k _ => (EReal.coe_mul _ _).symm
  have e2 : (∑ k, (b k : EReal)) = ((∑ k, b k : ℝ) : EReal) := coe_sum _ _
  have e3 : (∑ k, (b k : EReal) * (((a k : EReal) - (M : EReal)) - (L : EReal)))
      = ((∑ k, b k * ((a k - M) - L) : ℝ) : EReal) := by
    rw [← coe_sum]; refine Finset.sum_congr rfl fun k _ => ?_
    rw [← EReal.coe_sub, ← EReal.coe_sub, ← EReal.coe_mul]
  have key : ∑ k, b k * ((a k - M) - L) = (∑ k, b k * a k) - (L + M) * ∑ k, b k := by
    rw [Finset.mul_sum, ← Finset.sum_sub_distrib]
    exact Finset.sum_congr rfl fun k _ => by ring
  rw [e1, e2, e3, key, ← EReal.coe_add, ← EReal.coe_mul, ← EReal.coe_sub, ← EReal.coe_neg, ← EReal.coe_zero,
    ← EReal.coe_sub]
  congr 1
  ring

end Cert.SoftTargetLoss

end
-- ==== Proof.BlockLoss.lean ====
/-
  What the kernel body stores, read at an entry.

  The body loads a block of 4096 rows of logits `x` and the same rows of weights `t` (512 columns each) and stores
  one column of 4096 values. Entry `(p, 0)` of that column depends on row `p` of the two blocks only: with `M` the
  row's maximum (a running maximum from −∞) and `L` the logarithm of the sum of the row's shifted exponentials,
  it is `0 − (Σₖ tₖ·xₖ − (L + M)·Σₖ tₖ)`, the factored arrangement of the row's soft-target cross-entropy. Each
  row reduction keeps its reduced axis as a unit axis, so each is a vector cast to a column, and the row maximum
  is spread back over the 512 columns before the subtraction.
-/
import proofs.«101426_j70635032150275_2_alg».proof.Proof.Gen.KernelIdeal.Skeleton
import Idealize.ShloMosaic.Lib.ValueIdx
import Idealize.ShloMosaic.PureOps.Ideal.Laws
import proofs.«101426_j70635032150275_2_alg».proof.Proof.LibKeepdims
import proofs.«101426_j70635032150275_2_alg».proof.Proof.LibMaxReduce
import proofs.«101426_j70635032150275_2_alg».proof.Proof.RowLoss

noncomputable section

open scoped BigOperators

namespace Cert.KernelIdeal.BlockLoss

open Idealize.ShloMosaic Idealize.ShloMosaic.ValueIdx Cert.KernelIdeal Cert.KernelIdeal.Gen
open Cert.LibKeepdims Cert.LibMaxReduce Cert.SoftTargetLoss

/-- The exponential and the logarithm act entry by entry. -/
theorem exp_apply {s : Shape} (a : FVec Ideal s .f32) (i : s.Idx) : exp a i = Ideal.exp (a i) := rfl
theorem log_apply {s : Shape} (a : FVec Ideal s .f32) (i : s.Idx) : log a i = Ideal.log (a i) := rfl

/-- The row sums and the row maximum of a loaded block, read at a row; stated with the accumulator proofs in the form the
    printed body carries them (each a reflexivity at the accumulator's word). -/
theorem rowSum_apply (src : FVec Ideal S4096x512 .f32) (h : S4096x512.Reduces [1] S4096) (hφ : FKind.Formats .f32)
    (hacc : (0x00000000#32 : BitVec 32) = 0x00000000#32) (p : Fin 4096) :
    multiReduction .add [1] S4096 src 0x00000000#32 h hφ hacc (ix1 p) = ∑ k : Fin 512, src (ix2 p k) :=
  multiReduction_add_lastAxis_apply src 0x00000000#32 h hφ hacc p

theorem rowMax_apply (src : FVec Ideal S4096x512 .f32) (h : S4096x512.Reduces [1] S4096) (hφ : FKind.Formats .f32)
    (hacc : (0xFF800000#32 : BitVec 32) = 0xFF800000#32) (p : Fin 4096) :
    multiReduction .maximumf [1] S4096 src 0xFF800000#32 h hφ hacc (ix1 p)
      = foldMax (Ideal.ofBits .f32 0xFF800000#32) (fun k : Fin 512 => src (ix2 p k)) :=
  multiReduction_maximumf_lastAxis_apply src 0xFF800000#32 h hφ hacc p

/-- Entry `(p, u)` of the stored column is the factored loss of row `p` of the two loaded blocks. -/
theorem pay_apply (x0 x1 : Vec Ideal S4096x512 .f32) (p : Fin 4096) (u : Fin 1) :
    k0_pay1 (F := Ideal) x0 x1 (ix2 p u)
      = lossFactored (Ideal.ofBits .f32 0xFF800000#32) (fun k : Fin 512 => x0 (ix2 p k)) (fun k : Fin 512 => x1 (ix2 p k)) := by
  unfold k0_pay1 lossFactored logSumExp
  dsimp only
  -- the row maximum spread over the columns, read at any column of row `p`
  have hspread : ∀ k : Fin 512,
      broadcastTo S4096x512 (shapeCast S4096x1
        (multiReduction (F := Ideal) .maximumf [1] S4096 x0 0xFF800000#32 reduces_S4096x512_S4096 (.inl rfl) rfl)
        shapeCasts_S4096_S4096x1) broadcasts_S4096x1_S4096x512 (ix2 p k)
      = foldMax (Ideal.ofBits .f32 0xFF800000#32) (fun k : Fin 512 => x0 (ix2 p k)) := fun k => by
    rw [broadcastTo_a1_ab_apply _ _ p k u, shapeCast_a_a1_apply, rowMax_apply]
  simp only [subf_apply, mulf_apply, addf_apply, broadcast_apply, log_apply, shapeCast_a_a1_apply]
  rw [rowSum_apply (mulf x1 x0), rowSum_apply x1, rowMax_apply x0, rowSum_apply]
  simp only [mulf_apply, exp_apply, subf_apply, hspread]
  rw [show (Scalar.ofBits .f32 0x00000000#32 : Ideal .f32) = 0 from Ideal.ofBits_zero_f32]

end Cert.KernelIdeal.BlockLoss

end
-- ==== Proof.LibAxisSums.lean ====
/-
  Two readings of sums over small index sets:
  • at the ideal values a float sum reduction over the FIRST axis of an `[a, b]` matrix, read at column `c`, is the sum
    over `r : Fin a` of the entries `(r, c)` (the companion of the last-axis reading, which sums a row);
  • a rank-1 index set `[n]` is its one coordinate's range, so a sum over it is the sum over `Fin n` at `ix1`.
-/
import Idealize.ShloMosaic.Lib.ValueIdx
import Idealize.ShloMosaic.PureOps.Ideal.Laws

noncomputable section

open scoped BigOperators

namespace Cert.LibAxisSums

open Idealize.ShloMosaic Idealize.ShloMosaic.ValueIdx

/-- At the ideal values a float sum reduction over the FIRST axis of an `[a, b]` matrix, read at column `c`, is the sum
    of that column's `a` entries. -/
theorem multiReduction_add_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.LibAxisSums

end
-- ==== Proof.MeanLoss.lean ====
/-
  The whole-array statement: the loss of every row, and the two ways the rows' losses are summed.

  For logits `x` and target weights `t`, both `[131072, 512]`, the loss of row `r` is a function of row `r` of `x`
  and row `r` of `t`. One program keeps the rows' losses as a column `[131072, 1]` in the factored arrangement and sums
  the column over both its axes; the other keeps them as a vector `[131072]` in the plain arrangement and sums the
  vector. A sum over the index set `[131072, 1]` and a sum over `[131072]` are both a sum over the row number
  `r : Fin 131072` (the unit axis contributes one term), and row by row the two arrangements agree on real entries. So
  the two totals are equal whenever every entry of `x` and `t` is a real number.
-/
import Idealize.ShloMosaic.Lib.ValueIdx
import Idealize.ShloMosaic.PureOps.Ideal.Laws
import proofs.«101426_j70635032150275_2_alg».proof.Proof.LibRealEntries
import proofs.«101426_j70635032150275_2_alg».proof.Proof.LibAxisSums
import proofs.«101426_j70635032150275_2_alg».proof.Proof.RowLoss

noncomputable section

open scoped BigOperators

namespace Cert.SoftTargetLoss

open Idealize.ShloMosaic Idealize.ShloMosaic.ValueIdx Cert.LibRealEntries Cert.LibAxisSums

/-- Row `r` of a `[131072, 512]` array. -/
def row (x : (⟨2, ![131072, 512]⟩ : Shape).Idx → EReal) (r : Fin 131072) : Fin 512 → EReal := fun k => x (ix2 r k)

/-- The f32 −∞ pattern, the start value of both programs' row maxima, is the bottom of the extended reals. -/
theorem negInf_word : Ideal.ofBits .f32 0xFF800000#32 = ⊥ := by
  simp [Ideal.ofBits, Ideal.ieee]

/-- The column of the rows' losses in the factored arrangement: entry `(r, 0)` is the loss of row `r`. -/
def lossColumn (x t : (⟨2, ![131072, 512]⟩ : Shape).Idx → EReal) : (⟨2, ![131072, 1]⟩ : Shape).Idx → EReal :=
  fun j => lossFactored (Ideal.ofBits .f32 0xFF800000#32) (row x (j 0)) (row t (j 0))

/-- The vector of the rows' losses in the plain arrangement. -/
def lossVector (x t : (⟨2, ![131072, 512]⟩ : Shape).Idx → EReal) : (⟨1, ![131072]⟩ : Shape).Idx → EReal :=
  fun j => lossPlain (Ideal.ofBits .f32 0xFF800000#32) (row x (j 0)) (row t (j 0))

/-- On real entries the column's total and the vector's total are the same sum over the rows. -/
theorem sum_lossColumn_eq_sum_lossVector (x t : (⟨2, ![131072, 512]⟩ : Shape).Idx → EReal)
    (hx : ∀ i, IsReal (x i)) (ht : ∀ i, IsReal (t i)) :
    ∑ j, lossColumn x t j = ∑ j, lossVector x t j := by
  rw [sum_idx2, sum_idx1]
  refine Finset.sum_congr rfl fun r _ => ?_
  rw [Fintype.sum_unique]
  show lossFactored (Ideal.ofBits .f32 0xFF800000#32) (row x r) (row t r)
    = lossPlain (Ideal.ofBits .f32 0xFF800000#32) (row x r) (row t r)
  rw [negInf_word]
  exact lossFactored_eq_lossPlain (by decide) (row x r) (row t r) (fun k => hx _) (fun k => ht _)

end Cert.SoftTargetLoss

end
-- ==== Proof.KernelValue.lean ====
/-
  What the kernel program computes: the mean of the rows' losses.

  The grid has 32 points; point `t` loads rows `4096·t … 4096·t + 4095` of the logits and of the target weights and
  writes back rows `4096·t … 4096·t + 4095` of a column `[131072, 1]`. Entry `(p, 0)` of what it writes is the factored
  loss of row `p` of its two blocks, which are rows `4096·t + p` of the two arrays: so every point writes a block of ONE
  column, `lossColumn x t`, and the 32 blocks tile it (row `r` is in the block of point `r / 4096`). After the region the
  host sums the column over both axes from zero and divides by 131072.
-/
import proofs.«101426_j70635032150275_2_alg».proof.Proof.Gen.KernelIdeal.Frame
import Idealize.ShloMosaic.Lib.Pipeline.Value
import Idealize.ShloMosaic.Lib.ValueIdx
import Idealize.ShloMosaic.Lib.StableHlo.Run
import proofs.«101426_j70635032150275_2_alg».proof.Proof.BlockLoss
import proofs.«101426_j70635032150275_2_alg».proof.Proof.MeanLoss

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.MeanValue

open Cert.KernelIdeal Cert.KernelIdeal.Gen Cert.KernelIdeal.BlockLoss Cert.SoftTargetLoss

variable (m : (ℓ : Loc nD τ sig) → Buf (Elt Ideal) ℓ) (ρ : Dev nD → PrngReg)

theorem hz : (![0, 0] : Fin 2 → Nat) = fun _ => 0 := funext fun a => by fin_cases a <;> rfl

/-- An entry of the stored column, when the two loaded blocks' row `p` is row `r` of the arrays: the loss of row `r`. -/
theorem block_entry (x0 x1 : Vec Ideal S4096x512 .f32) (X T : S131072x512.Idx → EReal)
    (p : Fin 4096) (u : Fin 1) (r : Fin 131072) (u' : Fin 1)
    (h0 : ∀ k : Fin 512, x0 (ix2 p k) = X (ix2 r k)) (h1 : ∀ k : Fin 512, x1 (ix2 p k) = T (ix2 r k)) :
    k0_pay1 (F := Ideal) x0 x1 (ix2 p u) = lossColumn X T (ix2 r u') := by
  rw [pay_apply]
  show _ = lossFactored _ (row X r) (row T r)
  unfold row
  simp only [h0, h1]

/-- The printed index maps over the grid: each window's block row is the point's number, its block column 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 31 :=
  (by decide +kernel : ∀ t : Fin grid0.N, _)

/-- Every block row of the column is some point's. -/
theorem idx_onto : ∀ q : Fin 32, ∃ t : Fin cfg0.N, win0_2.index t = ![q.val, 0] :=
  (by decide +kernel : ∀ q : Fin 32, ∃ t : Fin grid0.N, win0_2.index t = ![q.val, 0])

/-- What point `t` writes back is block `t` of the column of the rows' losses. -/
theorem flushed_eq (c : Dev nD) (t : Fin cfg0.N) :
    (dats m 0 c).flushed 2 t
      = ((cfg0.win 2).blk t).view.read (Elt Ideal) (lossColumn (V m c main_arg0) (V m c main_arg1)) := by
  show (cfg0.win 2).cut (grid0.coords t) ((dats m 0 c).after 2 t) = _
  rw [after0_2]
  unfold out0_2
  rw [View.canon_unit_zero hz]
  simp only [View.ld_unit_zero (S := S4096x512) hz]
  obtain ⟨e0, e1, e2, e3, e4, e5⟩ := idx_facts t
  funext j
  show k0_pay1 (F := Ideal) (iblk m c 0 t) (iblk m c 1 t) j
    = lossColumn (V m c main_arg0) (V m c main_arg1) (((cfg0.win 2).blk t).view.emb j)
  have hj0 : (j 0).val < 4096 := (j 0).isLt
  refine ((congrArg (k0_pay1 (F := Ideal) (iblk m c 0 t) (iblk m c 1 t)) (eq_ix2 j)).trans
    (block_entry (iblk m c 0 t) (iblk m c 1 t) (V m c main_arg0) (V m c main_arg1) (j 0) (j 1)
      ((((cfg0.win 2).blk t).view.emb j) 0) ((((cfg0.win 2).blk t).view.emb j) 1) (fun k => ?_) (fun k => ?_))).trans
    (congrArg (lossColumn (V m c main_arg0) (V m c main_arg1)) (eq_ix2 _).symm)
  · show V m c main_arg0 (((cfg0.win 0).blk t).view.emb (ix2 (j 0) k)) = V m c main_arg0 _
    refine congrArg (V m c main_arg0) (funext fun a => Fin.ext ?_)
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 512 + 1 * k.val = k.val; omega
  · show V m c main_arg1 (((cfg0.win 1).blk t).view.emb (ix2 (j 0) k)) = V m c main_arg1 _
    refine congrArg (V m c main_arg1) (funext fun a => Fin.ext ?_)
    match a with
    | ⟨0, _⟩ => show win0_1.index t (0 : Fin 2) * 4096 + 1 * (j 0).val = win0_2.index t (0 : Fin 2) * 4096 + 1 * (j 0).val; omega
    | ⟨1, _⟩ => show win0_1.index t (1 : Fin 2) * 512 + 1 * k.val = k.val; omega

/-- An index of the column is in point `t`'s block iff each coordinate is in the block's range on its axis. -/
theorem mem_blk (t : Fin cfg0.N) (i : S131072x1.Idx) :
    i ∈ ((cfg0.win 2).blk t).view.set ↔ ∀ a : Fin 2, win0_2.index t a * S4096x1.size a ≤ (i a).val
      ∧ (i a).val < win0_2.index t a * S4096x1.size a + S4096x1.size a := by
  show i ∈ ((View.whole main_v0).slice (win0_2.rect t)).set ↔ _
  rw [View.set_slice_whole, Rect.mem_set_unit]
  exact Iff.rfl

/-- The blocks tile the column: row `r` is in the block of the point whose block row is `r / 4096`. -/
theorem cover (i : S131072x1.Idx) :
    ∃ t : Fin cfg0.N, (cfg0.win 2).flush t = true ∧ i ∈ ((cfg0.win 2).blk t).view.set := by
  have hi0 : (i 0).val < 131072 := (i 0).isLt
  have hi1 : (i 1).val < 1 := (i 1).isLt
  obtain ⟨t, ht⟩ := idx_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 1 ≤ (i 1).val ∧ (i 1).val < win0_2.index t (1 : Fin 2) * 1 + 1; omega

/-- The column array after the region is the column of the rows' losses of the two argument arrays. -/
theorem column_final (c : Dev nD) :
    (dats m 0 c).arrAt 2 cfg0.N
      = lossColumn (m ((c : Thread nD τ).loc main_arg0)) (m ((c : Thread nD τ).loc main_arg1)) :=
  (dats m 0 c).arrAt_eq_of_cover 2 _ (fun t _ => flushed_eq m c t) cover

/-- The host's lines after the region: the column summed over both axes from zero, then divided by 131072. -/
def meanOfColumn (A : S131072x1.Idx → EReal) : S_.Idx → EReal :=
  Host.divf (F := Ideal) (φ := .f32)
    (Host.reduceAdd (F := Ideal) (φ := .f32) A (constant (F := Ideal) S_ .f32 0x00000000#32) reducesTo_S131072x1_S_d0_1 h_S_)
    (constant (F := Ideal) S_ .f32 0x48000000#32)

/-- The host's sum of the column over both its axes, from zero: the sum of all its entries. -/
theorem sumAll_apply (A : S131072x1.Idx → EReal) (i : S_.Idx) :
    Host.reduceAdd (F := Ideal) (φ := .f32) A (constant (F := Ideal) S_ .f32 0x00000000#32)
      reducesTo_S131072x1_S_d0_1 h_S_ i = ∑ j, A j := by
  simp only [Host.reduceAdd, Ideal.hostReduceAdd_def]
  rw [Ideal.hostReduceAdd_total reducesTo_S131072x1_S_d0_1 (fun b => b.elim0) A _ i]
  show Ideal.ofBits .f32 0x00000000#32 + _ = _
  rw [Ideal.ofBits_zero_f32, zero_add]

/-- Read at its one index: the sum of all the column's entries, divided by the divisor's value. -/
theorem meanOfColumn_apply (A : S131072x1.Idx → EReal) (i : S_.Idx) :
    meanOfColumn A i = Ideal.div (∑ j, A j) (Ideal.ofBits .f32 0x48000000#32) := by
  unfold meanOfColumn
  show Ideal.div (Host.reduceAdd (F := Ideal) (φ := .f32) A (constant (F := Ideal) S_ .f32 0x00000000#32)
    reducesTo_S131072x1_S_d0_1 h_S_ i) (Ideal.ofBits .f32 0x48000000#32) = _
  rw [sumAll_apply]

/-- The program's result buffer after the run: the host's last lines applied to the column the region left. -/
theorem tail_eq (c : Dev nD) :
    Pipeline.afterTail₀ cfgs (dats m) 0 (V0 m) [hostOps1] c main_v2
      = meanOfColumn (lossColumn (m ((c : Thread nD τ).loc main_arg0)) (m ((c : Thread nD τ).loc main_arg1))) := by
  unfold Pipeline.afterTail₀
  show StableHlo.after hostOps1 _ (Proc.devRef .tc main_v2) = _
  after_results
  unfold meanOfColumn
  exact congrArg (fun A => Host.divf (F := Ideal) (φ := .f32)
      (Host.reduceAdd (F := Ideal) (φ := .f32) A (constant (F := Ideal) S_ .f32 0x00000000#32) reducesTo_S131072x1_S_d0_1 h_S_)
      (constant (F := Ideal) S_ .f32 0x48000000#32))
    ((Pipeline.withArrays_arr spec0 launch0.win.arr_inj c _ _ 2).trans (column_final m c))

/-- The kernel program's run: every weakly fair execution terminates with the result at the mean of the rows' losses of the
    two argument arrays, and the argument arrays unchanged. -/
theorem run : θ_run defs (onTc (τ := τ) (main (F := Ideal))) ⟨m, fun _ => 0, ρ⟩ (fun r => ∀ c : Dev nD,
      r.2.mem ((c.tc : Thread nD τ).loc main_v2)
        = meanOfColumn (lossColumn (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.MeanValue

end
-- ==== Proof.LibTypedRef.lean ====
/-
  Round trips through a typed reference.

  A typed reference to a tensor value's buffer carries a proof that the buffer's type is the value's type, and a
  called function's operations move contents between the two types along that proof: to the buffer's type when they
  write, back to the value's type when they read. The two moves are inverse to each other, whatever the reference and
  whatever the contents, because along the proof the two types are one type. Stated for ANY typed reference and proved
  by substituting the proof away, so that a term read back through such operations is freed of its round trips by
  rewriting, one pair at a time — each step checked on its own small equation, never by comparing the two whole terms.
-/
import Idealize.ShloMosaic.Lib.StableHlo

namespace Cert.LibTypedRef

open Idealize.ShloMosaic Idealize.ShloMosaic.StableHlo

variable {sig : RefSig} {Val : EltTy → Type} {T : BufTy}

/-- Contents moved to the buffer's own type and back are unchanged. -/
theorem ofBuf_toBuf (x : TRef sig T) (v : T.Contents Val) : x.ofBuf (x.toBuf v) = v := by
  obtain ⟨ref, ty_eq, h1, h2⟩ := x
  subst ty_eq
  rfl

/-- Contents moved to the value's type and back are unchanged. -/
theorem toBuf_ofBuf (x : TRef sig T) (v : x.ref.ty.Contents Val) : x.toBuf (x.ofBuf v) = v := by
  obtain ⟨ref, ty_eq, h1, h2⟩ := x
  subst ty_eq
  rfl

end Cert.LibTypedRef
-- ==== Proof.RefLoss.lean ====
/-
  What the reference program computes: the mean of the rows' losses, in the plain arrangement.

  The reference takes a log-softmax along each row and then, row by row, minus the sum of the target weights times the
  log-softmax entries. Read at row `r`: the row maximum `M` is the running maximum of the row from −∞ (joined once more
  with −∞, which changes nothing), a keepdims column spread back over the row; the shifted logits are `x − M`; the sum
  of their exponentials (from zero) has logarithm `L`, again a column spread over the row; the log-softmax entry is
  `(x − M) − L`; and the row's loss is `−(0 + Σₖ tₖ·((xₖ − M) − L))`, the plain arrangement. The result is the sum of the
  rows' losses from zero, divided by 131072.
-/
import proofs.«101426_j70635032150275_2_alg».proof.Proof.RefRead
import Idealize.ShloMosaic.Lib.ValueIdx
import Idealize.ShloMosaic.PureOps.Ideal.Laws
import proofs.«101426_j70635032150275_2_alg».proof.Proof.LibMaxReduce
import proofs.«101426_j70635032150275_2_alg».proof.Proof.MeanLoss

noncomputable section

open scoped BigOperators

namespace Cert.ReferenceIdeal.RefLoss

open Idealize.ShloMosaic Idealize.ShloMosaic.ValueIdx
open Cert.ReferenceIdeal Cert.ReferenceIdeal.Gen Cert.ReferenceIdeal.ReadP
open Cert.LibMaxReduce Cert.SoftTargetLoss

variable (x0 x1 : (⟨S131072x512, .f32⟩ : BufTy).Contents (Elt Ideal))

/-! ### The printed index maps, by coordinates -/

theorem idx_v2 (r : Fin 131072) (k : Fin 512) : idx_main_v2 (ix1 r) k = ix2 r k :=
  funext fun a => Fin.ext (by match a with | ⟨0, _⟩ => rfl | ⟨1, _⟩ => rfl)
theorem idx_v7 (r : Fin 131072) (k : Fin 512) : idx_main_call0_v7 (ix1 r) k = ix2 r k :=
  funext fun a => Fin.ext (by match a with | ⟨0, _⟩ => rfl | ⟨1, _⟩ => rfl)
theorem idx_v4 (r : Fin 131072) (k : Fin 512) : idx_main_call0_v4 (ix2 r k) = ix2 r (0 : Fin 1) :=
  funext fun a => Fin.ext (by match a with | ⟨0, _⟩ => rfl | ⟨1, _⟩ => rfl)
theorem idx_v10 (r : Fin 131072) (k : Fin 512) : idx_main_call0_v10 (ix2 r k) = ix2 r (0 : Fin 1) :=
  funext fun a => Fin.ext (by match a with | ⟨0, _⟩ => rfl | ⟨1, _⟩ => rfl)
theorem idx_v3 (r : Fin 131072) (u : Fin 1) : idx_main_call0_v3 (ix2 r u) = ix1 r :=
  funext fun a => Fin.ext (by match a with | ⟨0, _⟩ => rfl)
theorem idx_v8 (r : Fin 131072) (u : Fin 1) : idx_main_call0_v8 (ix2 r u) = ix1 r :=
  funext fun a => Fin.ext (by match a with | ⟨0, _⟩ => rfl)

/-! ### The stages at row `r` -/

/-- The row maximum, joined once more with −∞: the running maximum of row `r` from −∞. -/
theorem rowMax_read (r : Fin 131072) :
    val_main_call0_v2 (F := Ideal) x0 (ix1 r) = foldMax (Ideal.ofBits .f32 0xFF800000#32) (row x0 r) := by
  rw [val_main_call0_v2_apply, val_main_call0_v1_apply, val_main_call0_cst_0_apply]
  unfold val_main_call0_v0
  rw [hostReduce_maximumf_lastAxis_apply x0 _ reducesTo_S131072x512_S131072_d1 (by decide) h_S_ r,
    val_main_call0_cst_apply]
  exact max_foldMax _ _

/-- The shifted logits. -/
theorem shifted_read (r : Fin 131072) (k : Fin 512) :
    val_main_call0_v5 (F := Ideal) x0 (ix2 r k) = x0 (ix2 r k) - foldMax (Ideal.ofBits .f32 0xFF800000#32) (row x0 r) := by
  rw [val_main_call0_v5_apply, val_main_call0_v4_apply, idx_v4, val_main_call0_v3_apply, idx_v3, rowMax_read]
  rfl

/-- The logarithm of the sum of the shifted exponentials, as the keepdims column holds it. -/
theorem logSum_read (r : Fin 131072) (u : Fin 1) :
    val_main_call0_v9 (F := Ideal) x0 (ix2 r u)
      = logSumExp (row x0 r) (foldMax (Ideal.ofBits .f32 0xFF800000#32) (row x0 r)) := by
  rw [val_main_call0_v9_apply, val_main_call0_v8_apply, idx_v8, val_main_call0_v7_apply, val_main_call0_cst_1_apply]
  simp only [idx_v7, val_main_call0_v6_apply, shifted_read, Ideal.hostUnary_exp_def, Ideal.hostUnary_log_def,
    Ideal.ofBits_def, Ideal.ofBits_zero_f32, zero_add]
  rfl

/-- The log-softmax entry. -/
theorem logSoftmax_read (r : Fin 131072) (k : Fin 512) :
    val_main_v0 (F := Ideal) x0 (ix2 r k)
      = (x0 (ix2 r k) - foldMax (Ideal.ofBits .f32 0xFF800000#32) (row x0 r))
        - logSumExp (row x0 r) (foldMax (Ideal.ofBits .f32 0xFF800000#32) (row x0 r)) := by
  rw [val_main_v0_apply, shifted_read, val_main_call0_v10_apply, idx_v10, logSum_read]
  rfl

/-- The row's loss: the plain arrangement. -/
theorem rowLoss_read (r : Fin 131072) : val_main_v3 (F := Ideal) x0 x1 (ix1 r) = lossVector x0 x1 (ix1 r) := by
  rw [val_main_v3_apply, val_main_v2_apply, val_main_cst_apply]
  simp only [idx_v2, val_main_v1_apply, logSoftmax_read, Ideal.hostNegf_def, Ideal.negf_def, Ideal.mulf_def,
    Ideal.ofBits_def, Ideal.ofBits_zero_f32, zero_add]
  rfl

/-- The result: the rows' losses summed from zero, divided by 131072. -/
theorem result_read (i : S_.Idx) :
    val_main_v5 (F := Ideal) x0 x1 i = Ideal.div (∑ j, lossVector x0 x1 j) (Ideal.ofBits .f32 0x48000000#32) := by
  rw [val_main_v5_apply, val_main_v4_apply, val_main_cst_0_apply, val_main_cst_1_apply]
  simp only [Ideal.hostDivf_def, Ideal.ofBits_def, Ideal.ofBits_zero_f32, zero_add]
  have hsum : (∑ j, val_main_v3 (F := Ideal) x0 x1 j) = ∑ j, lossVector x0 x1 j :=
    Finset.sum_congr rfl fun j _ => by
      obtain ⟨r, rfl⟩ : ∃ r : Fin 131072, j = ix1 r := ⟨j 0, eq_ix1 j⟩
      exact rowLoss_read x0 x1 r
  rw [hsum]

end Cert.ReferenceIdeal.RefLoss

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«101426_j70635032150275_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.RealInputs.lean ====
/-
  The precondition says every entry of both inputs is a real number.

  The printed precondition is the conjunction of two tests, one per input: "the absolute value of every entry is below
  +∞". It holds when its one result is 1; then both tests are 1, and a test that is 1 says each entry of its array is a
  real number (neither infinity).
-/
import proofs.«101426_j70635032150275_2_alg».proof.Proof.Gen.Pre_finite_inputs
import Idealize.ShloMosaic.Lib.Affine
import proofs.«101426_j70635032150275_2_alg».proof.Proof.LibFinitePre

noncomputable section

namespace Cert.Pre_finite_inputs.RealInputs

open Idealize.ShloMosaic Idealize.ShloMosaic.ValueIdx Cert.Pre_finite_inputs Cert.LibRealEntries Cert.LibFinitePre

variable [Cert.Pre_finite_inputs.Facts]

/-- Under the precondition every entry of the logits and of the target weights is a real number. -/
theorem real_of_pre (x t : FVec Ideal S131072x512 .f32)
    (h : Cert.Pre_finite_inputs.fn (F := Ideal) x t = fun _ => 1#1) :
    (∀ i, IsReal (x i)) ∧ (∀ i, IsReal (t i)) := by
  have h0 := congrFun h ix0
  dsimp only [Cert.Pre_finite_inputs.fn] at h0
  obtain ⟨ha, hb⟩ := IntOp.andi_eq_one.mp h0
  exact ⟨all_real x _ _ _ ha, all_real t _ _ _ hb⟩

end Cert.Pre_finite_inputs.RealInputs

end
-- ==== Proof.lean ====
/-
  The mean soft-target cross-entropy of 131072 rows of 512 logits, computed two ways.

  For logits `x` and target weights `t` the loss of a row is −Σₖ tₖ · log_softmax(x)ₖ, and the result is the mean of the
  rows' losses. The reference computes the log-softmax (row maximum `M`, shifted logits `x − M`, `L = log Σ exp (x − M)`,
  entries `(x − M) − L`), multiplies by the weights, sums each row, negates, and averages. The kernel never forms the
  log-softmax: per row it computes Σ t·x, Σ t and `L + M`, and stores `0 − (Σ t·x − (L + M)·Σ t)`; the host then averages
  the stored column.

  The two row losses are equal by distributivity, which on the extended reals needs every quantity to be a real number;
  the precondition (every input entry finite) gives exactly that: the maximum of a row of reals is one of them, the
  shifted exponentials are positive reals, their sum is a positive real and its logarithm is real. Summing over the
  rows — as a column `[131072, 1]` over both axes on one side, as a vector `[131072]` on the other — is the same sum over
  the row number, and both sides divide it by the same constant, 131072.

  The kernel's frame claims are the generated frame certificates; the reference's is its run with the result dropped;
  the ideal pass rewrote nothing, so there is nothing to preserve.
-/
import proofs.«101426_j70635032150275_2_alg».proof.Defs
import proofs.«101426_j70635032150275_2_alg».proof.Proof.Gen.Kernel
import proofs.«101426_j70635032150275_2_alg».proof.Proof.Gen.Kernel.Skeleton
import proofs.«101426_j70635032150275_2_alg».proof.Proof.Gen.Kernel.Launch
import proofs.«101426_j70635032150275_2_alg».proof.Proof.Gen.Kernel.Points
import proofs.«101426_j70635032150275_2_alg».proof.Proof.Gen.Kernel.Frame
import proofs.«101426_j70635032150275_2_alg».proof.Proof.Gen.KernelIdeal
import proofs.«101426_j70635032150275_2_alg».proof.Proof.Gen.KernelIdeal.Skeleton
import proofs.«101426_j70635032150275_2_alg».proof.Proof.Gen.KernelIdeal.Launch
import proofs.«101426_j70635032150275_2_alg».proof.Proof.Gen.KernelIdeal.Points
import proofs.«101426_j70635032150275_2_alg».proof.Proof.Gen.KernelIdeal.Frame
import proofs.«101426_j70635032150275_2_alg».proof.Proof.Gen.ReferenceIdeal
import proofs.«101426_j70635032150275_2_alg».proof.Proof.Gen.Pre_finite_inputs
import proofs.«101426_j70635032150275_2_alg».proof.Proof.KernelValue
import proofs.«101426_j70635032150275_2_alg».proof.Proof.RefLoss
import proofs.«101426_j70635032150275_2_alg».proof.Proof.RealInputs
import Idealize.ShloMosaic.Adequacy
import Idealize.ShloMosaic.Init

noncomputable section

namespace Cert.Proof

open Idealize.ShloMosaic Idealize.ShloMosaic.TcCoe Idealize.SL.Sem
open Cert.LibRealEntries Cert.SoftTargetLoss

/-- On real entries the reference's result and the kernel program's result are one function of the two arrays: at the
    one index both are the sum of the rows' losses divided by 131072, and the two sums agree row by row. -/
theorem result_eq (x t : FVec Ideal Cert.KernelIdeal.S131072x512 .f32) (hx : ∀ i, IsReal (x i)) (ht : ∀ i, IsReal (t i)) :
    Cert.ReferenceIdeal.ReadP.val_main_v5 (F := Ideal) x t
      = Cert.KernelIdeal.MeanValue.meanOfColumn (lossColumn x t) := by
  funext i
  rw [Cert.ReferenceIdeal.RefLoss.result_read, Cert.KernelIdeal.MeanValue.meanOfColumn_apply,
    sum_lossColumn_eq_sum_lossVector x t hx ht]

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the two arrays, under the precondition, both programs end at the mean of the rows' losses:
    the kernel program by its run, the reference by its run read stage by stage, the two joined by `result_eq` on the
    real entries the precondition gives. -/
theorem algebraic : Cert.algebraic_KernelIdeal_ReferenceIdeal := by
  intro m ρ m' ρ' hpre hagree
  refine ⟨fun c => Cert.KernelIdeal.MeanValue.meanOfColumn
      (lossColumn (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.MeanValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨hx, ht⟩ := Cert.Pre_finite_inputs.RealInputs.real_of_pre _ _ (hpre c)
  rw [(hagree c).1, (hagree c).2]
  exact (Cert.ReferenceIdeal.ReadP.val_main_v5_eq _ _).trans (result_eq _ _ hx ht)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
